-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S16x4096 : Shape := ⟨2, ![16, 4096]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel

variable [Facts]

def fn {F : FTy → Type} [FloatOps F] (main_arg0 : FVec F S16x4096x512 .f32) (main_arg1 : FVec F S16x4096x512 .f32) (main_arg2 : IVec S16x4096 32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x512 .f32 := Host.absf main_arg1
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  main_v8
-- ==== Kernel.lean ====
abbrev S16x4096x512 : Shape := ⟨3, ![16, 4096, 512]⟩
abbrev S16x4096 : Shape := ⟨2, ![16, 4096]⟩
abbrev S16x1 : Shape := ⟨2, ![16, 1]⟩
abbrev S8x256x512 : Shape := ⟨3, ![8, 256, 512]⟩
abbrev S8x256 : Shape := ⟨2, ![8, 256]⟩
abbrev S8x1 : Shape := ⟨2, ![8, 1]⟩
abbrev S8x256x1 : Shape := ⟨3, ![8, 256, 1]⟩
abbrev S8 : Shape := ⟨1, ![8]⟩
abbrev S16 : Shape := ⟨1, ![16]⟩
abbrev S_ : Shape := ⟨0, ![]⟩

abbrev nBuf : Space → Nat
  | .hbm => 23
  | .vmem => 10
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096, .i32⟩
  | .hbm, ⟨3, _⟩ => ⟨S16x1, .f32⟩
  | .hbm, ⟨4, _⟩ => ⟨S16x1, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .i1⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S8x256, .i32⟩
  | .local _ .vmem, ⟨5, _⟩ => ⟨S8x256, .i32⟩
  | .local _ .vmem, ⟨6, _⟩ => ⟨S8x1, .f32⟩
  | .local _ .vmem, ⟨7, _⟩ => ⟨S8x1, .f32⟩
  | .local _ .vmem, ⟨8, _⟩ => ⟨S8x1, .f32⟩
  | .local _ .vmem, ⟨9, _⟩ => ⟨S8x1, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x1_S8x1_0_0 : ∀ a, (![0, 0] : Fin 2 → Nat) a + S8x1.size a ≤ S8x1.size a
  h_S8x1 : 0 < S8x1.numel
  inb_S8x256x512_S8x256x512_0_0_0 : ∀ a, (![0, 0, 0] : Fin 3 → Nat) a + S8x256x512.size a ≤ S8x256x512.size a
  h_S8x256x512 : 0 < S8x256x512.numel
  inb_S8x256_S8x256_0_0 : ∀ a, (![0, 0] : Fin 2 → Nat) a + S8x256.size a ≤ S8x256.size a
  h_S8x256 : 0 < S8x256.numel
  reduces_S8x256x512_S8x256 : S8x256x512.Reduces [2] S8x256
  shapeCasts_S8x256_S8x256x1 : S8x256.ShapeCasts S8x256x1
  broadcasts_S8x256x1_S8x256x512 : S8x256x1.Broadcasts S8x256x512
  shapeCasts_S8x256x1_S8x256 : S8x256x1.ShapeCasts S8x256
  natLt_1_32 : 1 < 32
  reduces_S8x256_S8 : S8x256.Reduces [1] S8
  shapeCasts_S8_S8x1 : S8.ShapeCasts S8x1
  shapeCasts_S8x1_S8x1 : S8x1.ShapeCasts S8x1
  shapeCasts_S16x1_S16 : S16x1.ShapeCasts S16
  bcast_S_S16 : S_.BroadcastsInDim S16 (![] : Fin 0 → Fin S16.rank)
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S16x4096x512.size a
  hwx0_0 : ∀ i : grid0.Coords, EltTy.bits .f32 = 32 ∨ (Rect.block (s := S16x4096x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S16x4096x512.size a
  hwx0_1 : ∀ i : grid0.Coords, EltTy.bits .f32 = 32 ∨ (Rect.block (s := S16x4096x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x4096.size a
  hwx0_2 : ∀ i : grid0.Coords, EltTy.bits .i32 = 32 ∨ (Rect.block (s := S16x4096) S8x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S16x1.size a
  hwx0_3 : ∀ i : grid0.Coords, EltTy.bits .f32 = 32 ∨ (Rect.block (s := S16x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S16x1.size a
  hwx0_4 : ∀ i : grid0.Coords, EltTy.bits .f32 = 32 ∨ (Rect.block (s := S16x1) S8x1.size (cc0_transform_4 i) (hinb0_4 i)).WholeWords (EltTy.packing .f32)

variable [Facts₀]

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S16x4096 : Shape := ⟨2, ![16, 4096]⟩
abbrev S_ : Shape := ⟨0, ![]⟩
abbrev S16x4096x1 : Shape := ⟨3, ![16, 4096, 1]⟩
abbrev S16 : Shape := ⟨1, ![16]⟩

abbrev nBuf : Space → Nat
  | .hbm => 47
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096, .i32⟩
  | .hbm, ⟨3, _⟩ => ⟨S_, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S16x4096x1, .f32⟩
  | .hbm, ⟨9, _⟩ => ⟨S16x4096x512, .f32⟩
  | .hbm, ⟨10, _⟩ => ⟨S16x4096x512, .f32⟩
  | .hbm, ⟨11, _⟩ => ⟨S16x4096x512, .f32⟩
  | .hbm, ⟨12, _⟩ => ⟨S_, .f32⟩
  | .hbm, ⟨13, _⟩ => ⟨S16x4096, .f32⟩
  | .hbm, ⟨14, _⟩ => ⟨S16x4096x1, .f32⟩
  | .hbm, ⟨15, _⟩ => ⟨S16x4096x1, .f32⟩
  | .hbm, ⟨16, _⟩ => ⟨S16x4096x512, .f32⟩
  | .hbm, ⟨17, _⟩ => ⟨S16x4096x512, .f32⟩
  | .hbm, ⟨18, _⟩ => ⟨S16x4096x512, .f32⟩
  | .hbm, ⟨19, _⟩ => ⟨S_, .f32⟩
  | .hbm, ⟨20, _⟩ => ⟨S16x4096, .f32⟩
  | .hbm, ⟨21, _⟩ => ⟨S16x4096, .f32⟩
  | .hbm, ⟨22, _⟩ => ⟨S_, .i32⟩
  | .hbm, ⟨23, _⟩ => ⟨S16x4096, .i32⟩
  | .hbm, ⟨24, _⟩ => ⟨S16x4096, .i1⟩
  | .hbm, ⟨25, _⟩ => ⟨S16x4096, .f32⟩
  | .hbm, ⟨26, _⟩ => ⟨S_, .f32⟩
  | .hbm, ⟨27, _⟩ => ⟨S16, .f32⟩
  | .hbm, ⟨28, _⟩ => ⟨S16x4096, .f32⟩
  | .hbm, ⟨29, _⟩ => ⟨S_, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .i1⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_cst_5 : Ref sig .tc := ⟨.hbm, 42, rfl⟩
abbrev main_v18 : Ref sig .tc := ⟨.hbm, 43, rfl⟩
abbrev main_cst_6 : Ref sig .tc := ⟨.hbm, 44, rfl⟩
abbrev main_v19 : Ref sig .tc := ⟨.hbm, 45, rfl⟩
abbrev main_v20 : Ref sig .tc := ⟨.hbm, 46, rfl⟩

abbrev nD : Nat := 1
abbrev τ : Topo := Topo.v7x

variable {F : FTy → Type} [FloatOps F]

class Facts₀ : Prop where
  reducesTo_S16x4096x512_S16x4096_d2 : S16x4096x512.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x512_0_1_2 : S16x4096x1.BroadcastsInDim S16x4096x512 (![0, 1, 2] : Fin 3 → Fin S16x4096x512.rank)
  reducesTo_S16x4096_S16_d1 : S16x4096.ReducesTo [1] S16
  bcast_S_S16 : S_.BroadcastsInDim S16 (![] : Fin 0 → Fin S16.rank)
  reducesTo_S16_S_d0 : S16.ReducesTo [0] S_

variable [Facts₀]

class Facts : Prop extends Facts₀ where

variable [Facts]
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.Spec.lean ====
/-
  The masked soft-label cross-entropy, one token row at a time, on the extended reals — in the two arrangements
  the two programs compute it in, and the law that joins them.

  For a row of logits `x` and a row of soft labels `t` (512 classes each) write `M = max_c x_c` (folded from -∞),
  `S = Σ_c exp (x_c - M)` and `L = log S`. The token's loss is `-Σ_c t_c · ((x_c - M) - L)`, the sum of the labels
  against the log-softmax (`lossDirect`). Distributing `t_c` over the difference and pulling the constant `L` out of
  the sum gives `(Σ_c t_c) · L - Σ_c t_c · (x_c - M)` (`lossFolded`), which never forms the 512 log-probabilities.
  On the extended reals a factor distributes over a difference only away from the infinities, so the two agree
  where every `x_c` and `t_c` is a real number: then `M` is one of the `x_c`, each `exp (x_c - M)` is a positive real,
  `S` is a positive real (the index set is not empty), `L` is a real, and the identity is one of real numbers.

  A token counts when its mask word is 1 (`active`: 1 or 0). Per batch row the programs need the number of active
  tokens and the sum of the active tokens' losses over the 4096 tokens; a sum over 4096 tokens taken 256 at a time
  in 16 consecutive stretches is the same sum (`sum_stretches`: addition of extended reals is commutative and
  associative, infinities or not). The last step (`epilogue`) turns the 16 sums and 16 counts into the mean over
  the batch rows that have an active token of each row's mean loss over its active tokens.
-/
import Idealize.ShloMosaic.PureOps.Ideal.Laws
import Idealize.ShloMosaic.Lib.ValueIdx
import proofs.«143125_j58497454571825_2_alg».proof.Proof.LibRealValued

noncomputable section

namespace Cert.MaskedLoss

open Idealize.ShloMosaic Cert.RealValued

/-! ## The maximum of a row -/

/-- The f32 pattern of -∞ is the bottom of the extended reals. -/
theorem negInf_eq : Ideal.ofBits .f32 0xFF800000#32 = (⊥ : EReal) := by simp [Ideal.ofBits, Ideal.ieee]

/-- The maximum of finitely many extended reals, folded from -∞ over a nonempty index set, is one of them. -/
theorem fold_max_bot_mem {ι : Type} [DecidableEq ι] (f : ι → EReal) (s : Finset ι) (hs : s.Nonempty) :
    ∃ i ∈ s, s.fold max ⊥ f = f i := by
  induction s using Finset.induction_on with
  | empty => exact absurd hs Finset.not_nonempty_empty
  | insert a s ha ih =>
    rw [Finset.fold_insert ha]
    rcases s.eq_empty_or_nonempty with rfl | hne
    · exact ⟨a, Finset.mem_insert_self a _, by rw [Finset.fold_empty]; exact max_bot_right _⟩
    · obtain ⟨i, hi, e⟩ := ih hne
      rw [e]
      rcases max_choice (f a) (f i) with h | h
      · exact ⟨a, Finset.mem_insert_self a s, h⟩
      · exact ⟨i, Finset.mem_insert_of_mem hi, h⟩

/-- A row's maximum: the fold of `max` from -∞ over the 512 classes. -/
def rowMax (x : Fin 512 → EReal) : EReal :=
  (Finset.univ : Finset (Fin 512)).fold max (Ideal.ofBits .f32 0xFF800000#32) x

/-- The maximum of a row of reals is a real (it is one of them). -/
theorem rowMax_isReal (x : Fin 512 → EReal) (hx : ∀ c, IsReal (x c)) : IsReal (rowMax x) := by
  unfold rowMax
  rw [negInf_eq]
  obtain ⟨i, _, e⟩ := fold_max_bot_mem x Finset.univ Finset.univ_nonempty
  rw [e]; exact hx i

/-- Taking the maximum with -∞ once more changes nothing. -/
theorem max_negInf_rowMax (x : Fin 512 → EReal) : max (Ideal.ofBits .f32 0xFF800000#32) (rowMax x) = rowMax x := by
  rw [negInf_eq]; exact max_bot_left _

/-! ## A token's loss, in two arrangements -/

/-- `log Σ_c exp (x_c - max x)`. -/
def logSumExp (x : Fin 512 → EReal) : EReal := Ideal.log (∑ c, Ideal.exp (x c - rowMax x))

/-- The loss with the labels distributed: `(Σ t) · L - Σ t · (x - M)`. -/
def lossFolded (x t : Fin 512 → EReal) : EReal :=
  (∑ c, t c) * logSumExp x - ∑ c, t c * (x c - rowMax x)

/-- The loss against the log-softmax: `-Σ t · ((x - M) - L)`. -/
def lossDirect (x t : Fin 512 → EReal) : EReal :=
  -(∑ c, t c * (x c - rowMax x - logSumExp x))

/-- On rows of real numbers the two arrangements agree: every quantity on the way is a real, and the identity
    `(Σ t)·L - Σ t·s = -Σ t·(s - L)` holds in the reals. -/
theorem lossFolded_eq_lossDirect (x t : Fin 512 → EReal) (hx : ∀ c, IsReal (x c)) (ht : ∀ c, IsReal (t c)) :
    lossFolded x t = lossDirect x t := by
  obtain ⟨M, hM⟩ := rowMax_isReal x hx
  choose xr hxr using hx
  choose tr htr using ht
  have hs : ∀ c, x c - rowMax x = ((xr c - M : ℝ) : EReal) := fun c => by rw [hxr c, hM, ← EReal.coe_sub]
  have hS : (∑ c, Ideal.exp (x c - rowMax x)) = ((∑ c, Real.exp (xr c - M) : ℝ) : EReal) := by
    rw [coe_sum]; exact Finset.sum_congr rfl fun c _ => by rw [hs c, Ideal.exp_coe]
  have hpos : 0 < ∑ c : Fin 512, Real.exp (xr c - M) :=
    Finset.sum_pos (fun c _ => Real.exp_pos _) Finset.univ_nonempty
  have hL : logSumExp x = ((Real.log (∑ c, Real.exp (xr c - M)) : ℝ) : EReal) := by
    unfold logSumExp; rw [hS, Ideal.log_coe, if_neg (not_le.mpr hpos)]
  unfold lossFolded lossDirect
  rw [hL]
  generalize Real.log (∑ c, Real.exp (xr c - M)) = L
  have h1 : (∑ c, t c) = ((∑ c, tr c : ℝ) : EReal) := by
    rw [coe_sum]; exact Finset.sum_congr rfl fun c _ => htr c
  have h2 : (∑ c, t c * (x c - rowMax x)) = ((∑ c, tr c * (xr c - M) : ℝ) : EReal) := by
    rw [coe_sum]; exact Finset.sum_congr rfl fun c _ => by rw [htr c, hs c, ← EReal.coe_mul]
  have h3 : (∑ c, t c * (x c - rowMax x - (L : EReal))) = ((∑ c, tr c * (xr c - M - L) : ℝ) : EReal) := by
    rw [coe_sum]; exact Finset.sum_congr rfl fun c _ => by rw [htr c, hs c, ← EReal.coe_sub, ← EReal.coe_mul]
  rw [h1, h2, h3, ← EReal.coe_mul, ← EReal.coe_sub, ← EReal.coe_neg]
  refine congrArg (fun r : ℝ => (r : EReal)) ?_
  simp only [mul_sub, Finset.sum_sub_distrib, ← Finset.sum_mul]
  ring

/-! ## The mask -/

/-- A token counts when its mask word is 1: the comparison's bit read as a number. -/
def active (w : BitVec 32) : EReal := FloatOps.uitofp (F := Ideal) .f32 (IntOp.cmpi .eq w 1#32)

/-- A bit widened to a 32-bit word and read signed is the bit read unsigned: both are 0 or 1. -/
theorem sitofp_setWidth_bit (b : BitVec 1) :
    FloatOps.sitofp (F := Ideal) .f32 (b.setWidth 32) = FloatOps.uitofp (F := Ideal) .f32 b := by
  by_cases h : b = 1#1
  · subst h; rfl
  · have h0 := ValueIdx.eq_zero_of_ne_one h; subst h0; rfl

/-! ## 4096 tokens, 256 at a time -/

/-- A sum over 4096 tokens is the sum over 16 consecutive stretches of the sums over each stretch's 256 tokens. -/
theorem sum_stretches {M : Type} [AddCommMonoid M] (g : Fin 4096 → M) :
    ∑ k, g k = ∑ j : Fin 16, ∑ s : Fin 256, g ⟨256 * j.val + s.val, by have := j.isLt; have := s.isLt; omega⟩ :=
  calc ∑ k, g k
      = ∑ p : Fin 16 × Fin 256, g (finProdFinEquiv p) :=
        (Equiv.sum_comp (finProdFinEquiv : Fin 16 × Fin 256 ≃ Fin (16 * 256)) g).symm
    _ = ∑ j : Fin 16, ∑ s : Fin 256, g (finProdFinEquiv (j, s)) := Fintype.sum_prod_type _
    _ = _ := Finset.sum_congr rfl fun j _ => Finset.sum_congr rfl fun s _ =>
        congrArg g (Fin.ext (by show s.val + 256 * j.val = 256 * j.val + s.val; omega))

/-! ## Per batch row, and the epilogue -/

/-- The number of active tokens of a batch row. -/
def rowCount (msk : Fin 4096 → BitVec 32) : EReal := ∑ k, active (msk k)

/-- The sum of the active tokens' losses of a batch row, the loss in the given arrangement. -/
def rowSum (loss : (Fin 512 → EReal) → (Fin 512 → EReal) → EReal) (x t : Fin 4096 → Fin 512 → EReal)
    (msk : Fin 4096 → BitVec 32) : EReal := ∑ k, loss (x k) (t k) * active (msk k)

/-- On real inputs the row sum does not depend on the arrangement of the loss. -/
theorem rowSum_folded_eq_direct (x t : Fin 4096 → Fin 512 → EReal) (msk : Fin 4096 → BitVec 32)
    (hx : ∀ k c, IsReal (x k c)) (ht : ∀ k c, IsReal (t k c)) :
    rowSum lossFolded x t msk = rowSum lossDirect x t msk :=
  Finset.sum_congr rfl fun k _ => by rw [lossFolded_eq_lossDirect (x k) (t k) (hx k) (ht k)]

/-- From the 16 row sums and 16 row counts to the result: each row's sum over `max (count, 1)`, kept where the count
    is positive, summed over the rows and divided by `max (number of such rows, 1)`. Both programs end with exactly
    these operations; the shape facts they cite are arguments. -/
def epilogue (hb : (⟨0, ![]⟩ : Shape).BroadcastsInDim (⟨1, ![16]⟩ : Shape) (![] : Fin 0 → Fin 1))
    (hr : (⟨1, ![16]⟩ : Shape).ReducesTo [0] (⟨0, ![]⟩ : Shape)) (h0 : 0 < (⟨0, ![]⟩ : Shape).numel)
    (sum cnt : FVec Ideal ⟨1, ![16]⟩ .f32) : FVec Ideal ⟨0, ![]⟩ .f32 :=
  Host.divf
    (Host.reduceAdd
      (mulf (Host.divf sum (maximumf cnt (broadcastInDim ⟨1, ![16]⟩ ![] hb (constant (F := Ideal) ⟨0, ![]⟩ .f32 0x3F800000#32))))
        (uitofp .f32 (cmpf .ogt cnt (broadcastInDim ⟨1, ![16]⟩ ![] hb (constant (F := Ideal) ⟨0, ![]⟩ .f32 0x00000000#32)))))
      (constant (F := Ideal) ⟨0, ![]⟩ .f32 0x00000000#32) hr h0)
    (maximumf
      (Host.reduceAdd (uitofp .f32 (cmpf .ogt cnt (broadcastInDim ⟨1, ![16]⟩ ![] hb (constant (F := Ideal) ⟨0, ![]⟩ .f32 0x00000000#32))))
        (constant (F := Ideal) ⟨0, ![]⟩ .f32 0x00000000#32) hr h0)
      (constant (F := Ideal) ⟨0, ![]⟩ .f32 0x3F800000#32))

/-! ## The arrays, row by row -/

/-- Batch row `b` of a `[16, 4096, 512]` array: its 4096 token rows of 512 classes. -/
def tokens (x : (⟨3, ![16, 4096, 512]⟩ : Shape).Idx → EReal) (b : Fin 16) : Fin 4096 → Fin 512 → EReal :=
  fun k c => x (ValueIdx.ix3 b k c)

/-- Batch row `b` of the `[16, 4096]` mask. -/
def maskRow (w : (⟨2, ![16, 4096]⟩ : Shape).Idx → BitVec 32) (b : Fin 16) : Fin 4096 → BitVec 32 :=
  fun k => w (ValueIdx.ix2 b k)

/-- The 16 row sums of the active tokens' losses, as a length-16 array. -/
def sums (loss : (Fin 512 → EReal) → (Fin 512 → EReal) → EReal) (x t : (⟨3, ![16, 4096, 512]⟩ : Shape).Idx → EReal)
    (w : (⟨2, ![16, 4096]⟩ : Shape).Idx → BitVec 32) : FVec Ideal ⟨1, ![16]⟩ .f32 :=
  fun j => rowSum loss (tokens x (j 0)) (tokens t (j 0)) (maskRow w (j 0))

/-- The 16 row counts of active tokens, as a length-16 array. -/
def counts (w : (⟨2, ![16, 4096]⟩ : Shape).Idx → BitVec 32) : FVec Ideal ⟨1, ![16]⟩ .f32 :=
  fun j => rowCount (maskRow w (j 0))

/-- On real inputs the 16 row sums do not depend on the arrangement of the loss. -/
theorem sums_folded_eq_direct (x t : (⟨3, ![16, 4096, 512]⟩ : Shape).Idx → EReal) (w : (⟨2, ![16, 4096]⟩ : Shape).Idx → BitVec 32)
    (hx : ∀ i, IsReal (x i)) (ht : ∀ i, IsReal (t i)) : sums lossFolded x t w = sums lossDirect x t w :=
  funext fun j => rowSum_folded_eq_direct _ _ _ (fun k c => hx _) (fun k c => ht _)

end Cert.MaskedLoss

end
-- ==== Proof.LibKeepdims3.lean ====
/-
  Trailing-unit-axis forms of the layout operations at rank 3, read at an index, and the index a one-axis
  reduction inserts.

  A reduction along the last axis that keeps the axis (`max(axis = -1, keepdims = True)`) produces an array of shape
  `[a, b]` that is recast to `[a, b, 1]` and then repeated along the last axis to `[a, b, c]`; the way back drops the
  unit axis again. None of these steps moves a number: entry `(p, q, u)` of the recast array is entry `(p, q)` of the
  operand (row-major position `(p·b + q)·1 + 0` against `p·b + q`), and entry `(p, q, k)` of the repeated array is entry
  `(p, q, 0)`. A reduction over one axis reads, at a reduced index, the operand along that axis: reduced index
  `(p, q)` with coordinate `k` inserted last is `(p, q, k)`, and reduced index `p` with `k` inserted last is `(p, k)`.
-/
import Idealize.ShloMosaic.Lib.Pipeline.Value
import Idealize.ShloMosaic.Lib.ValueIdx
import Idealize.ShloMosaic.PureOps.Reduce

namespace Cert.Lib.Keepdims3

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array cast to `[a, b]` reads, at `(p, q)`, the operand at `(p, q, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Reducing the last axis of `[a, b, c]`: the reduced index `(p, q)` with coordinate `k` inserted is `(p, q, k)`. -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- Reducing the last axis of `[a, b]`: the reduced index `p` with coordinate `k` inserted is `(p, k)`. -/
theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

end Cert.Lib.Keepdims3
-- ==== Proof.RefValue.lean ====
/-
  What the reference computes, read row by row.

  The reference takes the log-softmax of every token row — the row's maximum (taken once more against -∞, which
  changes nothing), the shifted row, the logarithm of the sum of its exponentials —, multiplies by the labels, sums
  over the classes and negates: each token's loss against the log-softmax. It multiplies by the mask's 0 or 1 and
  sums over a batch row's 4096 tokens, and separately sums the mask. Read at batch row `b` these are the row sum (the
  loss in its direct arrangement) and the row count of the specification, and the remaining operations are the
  epilogue on the two length-16 arrays. Each host sum starts from the f32 zero, which is the extended real 0.
-/
import proofs.«143125_j58497454571825_2_alg».proof.Proof.RefReadPatched
import proofs.«143125_j58497454571825_2_alg».proof.Proof.Spec
import proofs.«143125_j58497454571825_2_alg».proof.Proof.LibKeepdims3
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.MaskedLoss
open Idealize.ShloMosaic Idealize.ShloMosaic.ValueIdx

variable (x0 x1 : (⟨S16x4096x512, .f32⟩ : BufTy).Contents (Elt Ideal)) (x2 : (⟨S16x4096, .i32⟩ : BufTy).Contents (Elt Ideal))

/-! ## The composed index functions at coordinates -/

theorem idx_v4 (b : Fin 16) (k : Fin 4096) (c : Fin 512) : idx_main_call0_v4 (ix3 b k c) = ix3 b k (0 : Fin 1) :=
  funext fun a => Fin.ext (by match a with | ⟨0, _⟩ => rfl | ⟨1, _⟩ => rfl | ⟨2, _⟩ => rfl)
theorem idx_v3 (b : Fin 16) (k : Fin 4096) (u : Fin 1) : idx_main_call0_v3 (ix3 b k u) = ix2 b k :=
  funext fun a => Fin.ext (by match a with | ⟨0, _⟩ => rfl | ⟨1, _⟩ => rfl)
theorem idx_v10 (b : Fin 16) (k : Fin 4096) (c : Fin 512) : idx_main_call0_v10 (ix3 b k c) = ix3 b k (0 : Fin 1) :=
  funext fun a => Fin.ext (by match a with | ⟨0, _⟩ => rfl | ⟨1, _⟩ => rfl | ⟨2, _⟩ => rfl)
theorem idx_v8 (b : Fin 16) (k : Fin 4096) (u : Fin 1) : idx_main_call0_v8 (ix3 b k u) = ix2 b k :=
  funext fun a => Fin.ext (by match a with | ⟨0, _⟩ => rfl | ⟨1, _⟩ => rfl)
theorem idx_c7 (b : Fin 16) (k : Fin 4096) (c : Fin 512) : idx_main_call0_v7 (ix2 b k) c = ix3 b k c :=
  funext fun a => Fin.ext (by match a with | ⟨0, _⟩ => rfl | ⟨1, _⟩ => rfl | ⟨2, _⟩ => rfl)
theorem idx_m2 (b : Fin 16) (k : Fin 4096) (c : Fin 512) : idx_main_v2 (ix2 b k) c = ix3 b k c :=
  funext fun a => Fin.ext (by match a with | ⟨0, _⟩ => rfl | ⟨1, _⟩ => rfl | ⟨2, _⟩ => rfl)
theorem idx_m7 (b : Fin 16) (k : Fin 4096) : idx_main_v7 (ix1 b) k = ix2 b k :=
  funext fun a => Fin.ext (by match a with | ⟨0, _⟩ => rfl | ⟨1, _⟩ => rfl)
theorem idx_m9 (b : Fin 16) (k : Fin 4096) : idx_main_v9 (ix1 b) k = ix2 b k :=
  funext fun a => Fin.ext (by match a with | ⟨0, _⟩ => rfl | ⟨1, _⟩ => rfl)

/-- The f32 zero every host sum starts from is the extended real 0. -/
theorem zero_eq : (FloatOps.ofBits (F := Ideal) .f32 0x00000000#32 : EReal) = 0 := Ideal.ofBits_zero_f32

/-! ## The log-softmax of a token row -/

/-- The host's maximum over the classes is the row's maximum. -/
theorem rawMax_eq (b : Fin 16) (k : Fin 4096) :
    val_main_call0_v0 (F := Ideal) x0 (ix2 b k) = rowMax (tokens x0 b k) := by
  have h : S16x4096x512.Reduces [2] S16x4096 := by decide
  unfold val_main_call0_v0
  refine (Host.reduce_eq_fold_single (α := Ideal .f32) FloatOps.maximumf (x0 : FVec Ideal S16x4096x512 .f32)
    (val_main_call0_cst (F := Ideal)) reducesTo_S16x4096x512_S16x4096_d2 h h_S_ (ix2 b k)).trans ?_
  have hf : (x0 ∘ h.lift (ix2 b k)) = tokens x0 b k :=
    funext fun c => congrArg x0 (Cert.Lib.Keepdims3.lift_last3 h b k c)
  exact congrArg (fun f => Finset.fold max (Ideal.ofBits .f32 0xFF800000#32) f (Finset.univ : Finset (Fin 512))) hf

/-- Taken once more against -∞ it is still the row's maximum. -/
theorem max_eq (b : Fin 16) (k : Fin 4096) :
    val_main_call0_v2 (F := Ideal) x0 (ix2 b k) = rowMax (tokens x0 b k) := by
  rw [val_main_call0_v2_apply, val_main_call0_v1_apply, val_main_call0_cst_0_apply, rawMax_eq]
  exact max_negInf_rowMax _

/-- The shifted row. -/
theorem shift_eq (b : Fin 16) (k : Fin 4096) (c : Fin 512) :
    val_main_call0_v5 (F := Ideal) x0 (ix3 b k c) = x0 (ix3 b k c) - rowMax (tokens x0 b k) := by
  rw [val_main_call0_v5_apply, val_main_call0_v4_apply, idx_v4, val_main_call0_v3_apply, idx_v3, max_eq]
  rfl

/-- The logarithm of the sum of the shifted row's exponentials. -/
theorem lse_eq (b : Fin 16) (k : Fin 4096) (u : Fin 1) :
    val_main_call0_v9 (F := Ideal) x0 (ix3 b k u) = logSumExp (tokens x0 b k) := by
  rw [val_main_call0_v9_apply, val_main_call0_v8_apply, idx_v8, val_main_call0_v7_apply, val_main_call0_cst_1_apply,
    zero_eq, zero_add]
  unfold logSumExp
  refine congrArg Ideal.log (Finset.sum_congr rfl fun c _ => ?_)
  rw [idx_c7, val_main_call0_v6_apply, shift_eq]
  rfl

/-- The log-softmax at a class. -/
theorem logp_eq (b : Fin 16) (k : Fin 4096) (c : Fin 512) :
    val_main_v0 (F := Ideal) x0 (ix3 b k c) = x0 (ix3 b k c) - rowMax (tokens x0 b k) - logSumExp (tokens x0 b k) := by
  rw [val_main_v0_apply, shift_eq, val_main_call0_v10_apply, idx_v10, lse_eq]
  rfl

/-! ## A token's loss, the mask, and the two sums over a batch row -/

/-- The token's loss against the log-softmax. -/
theorem loss_eq (b : Fin 16) (k : Fin 4096) :
    val_main_v3 (F := Ideal) x0 x1 (ix2 b k) = lossDirect (tokens x0 b k) (tokens x1 b k) := by
  rw [val_main_v3_apply, val_main_v2_apply, val_main_cst_apply, zero_eq, zero_add]
  unfold lossDirect
  refine congrArg (fun z : EReal => -z) (Finset.sum_congr rfl fun c _ => ?_)
  rw [idx_m2, val_main_v1_apply, logp_eq]
  rfl

/-- The mask's 0 or 1. -/
theorem active_eq (b : Fin 16) (k : Fin 4096) :
    val_main_v6 (F := Ideal) x2 (ix2 b k) = active (maskRow x2 b k) := by
  rw [val_main_v6_apply, val_main_v5_apply, val_main_v4_apply, val_main_c_apply]
  rfl

/-- The number of active tokens of batch row `b`. -/
theorem count_eq (b : Fin 16) : val_main_v7 (F := Ideal) x2 (ix1 b) = rowCount (maskRow x2 b) := by
  rw [val_main_v7_apply, val_main_cst_0_apply, zero_eq, zero_add]
  unfold rowCount
  exact Finset.sum_congr rfl fun k _ => by rw [idx_m7, active_eq]

/-- The sum of the active tokens' losses of batch row `b`. -/
theorem sum_eq (b : Fin 16) :
    val_main_v9 (F := Ideal) x0 x1 x2 (ix1 b) = rowSum lossDirect (tokens x0 b) (tokens x1 b) (maskRow x2 b) := by
  rw [val_main_v9_apply, val_main_cst_1_apply, zero_eq, zero_add]
  unfold rowSum
  exact Finset.sum_congr rfl fun k _ => by rw [idx_m9, val_main_v8_apply, loss_eq, active_eq]; rfl

/-! ## The result -/

/-- The two length-16 arrays are the specification's. -/
theorem counts_eq : val_main_v7 (F := Ideal) x2 = counts x2 :=
  funext fun j => by
    obtain ⟨b, rfl⟩ : ∃ b : Fin 16, j = ix1 b := ⟨j 0, eq_ix1 j⟩
    exact count_eq x2 b
theorem sums_eq : val_main_v9 (F := Ideal) x0 x1 x2 = sums lossDirect x0 x1 x2 :=
  funext fun j => by
    obtain ⟨b, rfl⟩ : ∃ b : Fin 16, j = ix1 b := ⟨j 0, eq_ix1 j⟩
    exact sum_eq x0 x1 x2 b

/-- The reference's result is the epilogue of the row sums (direct arrangement) and the row counts. -/
theorem result_eq : val_main_v20 (F := Ideal) x0 x1 x2
    = epilogue bcast_S_S16 reducesTo_S16_S_d0 h_S_ (sums lossDirect x0 x1 x2) (counts x2) := by
  rw [← sums_eq, ← counts_eq]
  rfl

end Cert.ReferenceIdeal.RefValue

end
-- ==== Proof.KernelPieces.lean ====
/-
  What each of the body's two control cases leaves in the two accumulators, as values.

  The body's first case (the first of a batch half's 16 token stretches) stores zeros into both accumulators and
  then, like the other case, reads each accumulator back, adds the block's part and stores the sum. So after the
  first case the sum accumulator holds the block's part added to zeros, and after the other case the block's part
  added to what the accumulator held before; likewise the count accumulator. The reads are of whole buffers, so
  they return the buffers' contents; a read of a buffer just overwritten by a whole store returns the stored value.
-/
import proofs.«143125_j58497454571825_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic
open Cert.KernelIdeal.Facts₀

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After the accumulating case the sum accumulator holds the block's part added to what it held. -/
theorem sumB (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x1 .f32) (harg5 : arg5.IsWhole) (arg6 : Memref sig .tc .vmem S8x1 .f32) (harg6 : arg6.IsWhole) (hc0 : ¬cond0_0 i)
    (x0 x1 : Vec F S8x256x512 .f32) (x2 : Vec F S8x256 .i32) (xo3 xo4 : Vec F S8x1 .f32) :
    out0_B_3 c i arg2 harg2 arg3 harg3 arg4 harg4 arg5 harg5 arg6 harg6 hc0 x0 x1 x2 xo3 xo4 = k0_pay6 x0 x1 x2 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  rw [View.canon_unit_zero hz2]
  simp only [View.readAt_eq_ld, harg2.read_unread, harg3.read_unread, harg4.read_unread, harg5.read_unread, harg6.read_unread,
    View.ld_unit_zero (S := S8x256x512) hz3, View.ld_unit_zero (S := S8x256) hz2, View.ld_unit_zero (S := S8x1) hz2]

/-- After the accumulating case the count accumulator holds the block's count added to what it held. -/
theorem cntB (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x1 .f32) (harg5 : arg5.IsWhole) (arg6 : Memref sig .tc .vmem S8x1 .f32) (harg6 : arg6.IsWhole) (hc0 : ¬cond0_0 i)
    (x0 x1 : Vec F S8x256x512 .f32) (x2 : Vec F S8x256 .i32) (xo3 xo4 : Vec F S8x1 .f32) :
    out0_B_4 c i arg2 harg2 arg3 harg3 arg4 harg4 arg5 harg5 arg6 harg6 hc0 x0 x1 x2 xo3 xo4 = k0_pay1 (k0_pay5 x2) xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero hz2]
  simp only [View.readAt_eq_ld, harg2.read_unread, harg3.read_unread, harg4.read_unread, harg5.read_unread, harg6.read_unread,
    View.ld_unit_zero (S := S8x256x512) hz3, View.ld_unit_zero (S := S8x256) hz2, View.ld_unit_zero (S := S8x1) hz2]

/-- After the resetting case the sum accumulator holds the block's part added to zeros. -/
theorem sumA (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x1 .f32) (harg5 : arg5.IsWhole) (arg6 : Memref sig .tc .vmem S8x1 .f32) (harg6 : arg6.IsWhole) (hc0 : cond0_0 i)
    (x0 x1 : Vec F S8x256x512 .f32) (x2 : Vec F S8x256 .i32) :
    out0_A_3 c i arg2 harg2 arg3 harg3 arg4 harg4 arg5 harg5 arg6 harg6 hc0 x0 x1 x2 = k0_pay6 x0 x1 x2 (k0_pay2 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread, harg5.read_unread, harg6.read_unread,
    View.ld_unit_zero (S := S8x256x512) hz3, View.ld_unit_zero (S := S8x256) hz2, View.ld_unit_zero (S := S8x1) hz2]

/-- After the resetting case the count accumulator holds the block's count added to zeros. -/
theorem cntA (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x1 .f32) (harg5 : arg5.IsWhole) (arg6 : Memref sig .tc .vmem S8x1 .f32) (harg6 : arg6.IsWhole) (hc0 : cond0_0 i)
    (x0 x1 : Vec F S8x256x512 .f32) (x2 : Vec F S8x256 .i32) :
    out0_A_4 c i arg2 harg2 arg3 harg3 arg4 harg4 arg5 harg5 arg6 harg6 hc0 x0 x1 x2 = k0_pay1 (k0_pay5 x2) (k0_pay3 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread, harg5.read_unread, harg6.read_unread,
    View.ld_unit_zero (S := S8x256x512) hz3, View.ld_unit_zero (S := S8x256) hz2, View.ld_unit_zero (S := S8x1) hz2]

end Cert.KernelIdeal.Pieces

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelPayload.lean ====
/-
  What one run of the kernel body adds to its two accumulators, read row by row.

  The body holds a block of 8 batch rows by 256 tokens by 512 classes of logits `x` and of labels `t`, and the same
  block of the mask. For every token row of the block it takes the row's maximum `M` (a lane reduction folded from
  -∞, kept as a unit axis and repeated along the classes), the shifted row `x - M`, the logarithm `L` of the sum of
  its exponentials, the sum of the labels and the sum of the labels against the shifted row, and forms
  `(Σ t)·L - Σ t·(x - M)`: the token's loss in its folded arrangement. The mask word compared with 1, widened to a
  32-bit word and read as a signed integer is the specification's 0 or 1. The body then adds, per batch row of the
  block, the sum over the block's 256 tokens of loss times mask to what the sum accumulator holds, and the sum of
  the mask to what the count accumulator holds. Every lane sum here starts from the f32 zero and is the plain sum.
-/
import proofs.«143125_j58497454571825_2_alg».proof.Proof.Gen.KernelIdeal.Skeleton
import proofs.«143125_j58497454571825_2_alg».proof.Proof.Spec
import proofs.«143125_j58497454571825_2_alg».proof.Proof.LibKeepdims3
import proofs.«143125_j58497454571825_2_alg».proof.Proof.LibColumn
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.MaskedLoss Cert.Lib.Keepdims3
open Idealize.ShloMosaic Idealize.ShloMosaic.ValueIdx

/-- Token row `(r, s)` of a block. -/
def blkRow (x : FVec Ideal S8x256x512 .f32) (r : Fin 8) (s : Fin 256) : Fin 512 → EReal := fun c => x (ix3 r s c)

/-! ## Lane reductions that keep their axis -/

/-- A sum over the classes, kept as a unit axis, read at `(r, s, u)`. -/
theorem classSum_keep (y : FVec Ideal S8x256x512 .f32) (r : Fin 8) (s : Fin 256) (u : Fin 1) :
    shapeCast S8x256x1 (multiReduction .add [2] S8x256 y 0x00000000#32 reduces_S8x256x512_S8x256 (.inl rfl) rfl)
        shapeCasts_S8x256_S8x256x1 (ix3 r s u) = ∑ c : Fin 512, y (ix3 r s c) :=
  (shapeCast_ab_ab1_apply _ shapeCasts_S8x256_S8x256x1 r s u).trans
    ((Ideal.multiReduction_add_single y 0x00000000#32 reduces_S8x256x512_S8x256 (.inl rfl) rfl (ix2 r s)).trans
      (Finset.sum_congr rfl fun c _ => congrArg y (lift_last3 reduces_S8x256x512_S8x256 r s c)))

/-- The maximum over the classes, kept as a unit axis, read at `(r, s, u)`: the row's maximum. -/
theorem classMax_keep (x : FVec Ideal S8x256x512 .f32) (r : Fin 8) (s : Fin 256) (u : Fin 1) :
    shapeCast S8x256x1 (multiReduction .maximumf [2] S8x256 x 0xFF800000#32 reduces_S8x256x512_S8x256 (.inl rfl) rfl)
        shapeCasts_S8x256_S8x256x1 (ix3 r s u) = rowMax (blkRow x r s) := by
  refine (shapeCast_ab_ab1_apply _ shapeCasts_S8x256_S8x256x1 r s u).trans ?_
  refine (Ideal.multiReduction_maximumf_single x 0xFF800000#32 reduces_S8x256x512_S8x256 (.inl rfl) rfl (ix2 r s)).trans ?_
  have hf : (x ∘ reduces_S8x256x512_S8x256.lift (ix2 r s)) = blkRow x r s :=
    funext fun c => congrArg x (lift_last3 reduces_S8x256x512_S8x256 r s c)
  exact congrArg (fun f => Finset.fold max (Ideal.ofBits .f32 0xFF800000#32) f (Finset.univ : Finset (Fin 512))) hf

/-! ## The block's losses -/

/-- The shifted block: every token row minus its maximum. -/
def shiftedBlk (x : FVec Ideal S8x256x512 .f32) : FVec Ideal S8x256x512 .f32 :=
  subf x (broadcastTo S8x256x512
    (shapeCast S8x256x1 (multiReduction .maximumf [2] S8x256 x 0xFF800000#32 reduces_S8x256x512_S8x256 (.inl rfl) rfl)
      shapeCasts_S8x256_S8x256x1) broadcasts_S8x256x1_S8x256x512)

theorem shiftedBlk_apply (x : FVec Ideal S8x256x512 .f32) (r : Fin 8) (s : Fin 256) (c : Fin 512) :
    shiftedBlk x (ix3 r s c) = x (ix3 r s c) - rowMax (blkRow x r s) := by
  unfold shiftedBlk
  show x (ix3 r s c) - broadcastTo S8x256x512 _ broadcasts_S8x256x1_S8x256x512 (ix3 r s c) = _
  rw [broadcastTo_ab1_abc_apply, classMax_keep]

/-- The block's token losses, `(Σ t)·L - Σ t·(x - M)`, one per token row. -/
def lossBlk (x t : FVec Ideal S8x256x512 .f32) : FVec Ideal S8x256 .f32 :=
  shapeCast S8x256
    (subf
      (mulf
        (shapeCast S8x256x1 (multiReduction .add [2] S8x256 t 0x00000000#32 reduces_S8x256x512_S8x256 (.inl rfl) rfl)
          shapeCasts_S8x256_S8x256x1)
        (log (shapeCast S8x256x1
          (multiReduction .add [2] S8x256 (exp (shiftedBlk x)) 0x00000000#32 reduces_S8x256x512_S8x256 (.inl rfl) rfl)
          shapeCasts_S8x256_S8x256x1)))
      (shapeCast S8x256x1
        (multiReduction .add [2] S8x256 (mulf t (shiftedBlk x)) 0x00000000#32 reduces_S8x256x512_S8x256 (.inl rfl) rfl)
        shapeCasts_S8x256_S8x256x1))
    shapeCasts_S8x256x1_S8x256

theorem lossBlk_apply (x t : FVec Ideal S8x256x512 .f32) (r : Fin 8) (s : Fin 256) :
    lossBlk x t (ix2 r s) = lossFolded (blkRow x r s) (blkRow t r s) := by
  unfold lossBlk
  refine (shapeCast_ab1_ab_apply _ shapeCasts_S8x256x1_S8x256 r s).trans ?_
  show shapeCast S8x256x1 _ shapeCasts_S8x256_S8x256x1 (ix3 r s (0 : Fin 1))
        * Ideal.log (shapeCast S8x256x1 _ shapeCasts_S8x256_S8x256x1 (ix3 r s (0 : Fin 1)))
      - shapeCast S8x256x1 _ shapeCasts_S8x256_S8x256x1 (ix3 r s (0 : Fin 1)) = _
  rw [classSum_keep, classSum_keep, classSum_keep]
  unfold lossFolded logSumExp
  refine congrArg₂ (· - ·) (congrArg₂ (· * ·) rfl (congrArg Ideal.log (Finset.sum_congr rfl fun c _ => ?_)))
    (Finset.sum_congr rfl fun c _ => ?_)
  · show Ideal.exp (shiftedBlk x (ix3 r s c)) = _
    rw [shiftedBlk_apply]; rfl
  · show t (ix3 r s c) * shiftedBlk x (ix3 r s c) = _
    rw [shiftedBlk_apply]; rfl

/-! ## The mask and the two payloads -/

/-- The mask's 0 or 1 as the body forms it. -/
theorem mask_apply (w : IVec S8x256 32) (r : Fin 8) (s : Fin 256) :
    k0_pay4 (F := Ideal) w (ix2 r s) = active (w (ix2 r s)) :=
  sitofp_setWidth_bit _

/-- A sum over the block's tokens, kept as a unit axis, read at `(r, u)`. -/
theorem tokenSum_keep (y : FVec Ideal S8x256 .f32) (r : Fin 8) (u : Fin 1) :
    shapeCast S8x1 (multiReduction .add [1] S8 y 0x00000000#32 reduces_S8x256_S8 (.inl rfl) rfl) shapeCasts_S8_S8x1 (ix2 r u)
      = ∑ s : Fin 256, y (ix2 r s) :=
  (Cert.Lib.Column.shapeCast_a_a1_apply _ shapeCasts_S8_S8x1 r u).trans
    ((Ideal.multiReduction_add_single y 0x00000000#32 reduces_S8x256_S8 (.inl rfl) rfl (ix1 r)).trans
      (Finset.sum_congr rfl fun s _ => congrArg y (lift_last2 reduces_S8x256_S8 r s)))

/-- What the body adds to the count accumulator: per batch row, the block's number of active tokens. -/
theorem countPart_apply (w : IVec S8x256 32) (r : Fin 8) (u : Fin 1) :
    k0_pay5 (F := Ideal) w (ix2 r u) = ∑ s : Fin 256, active (w (ix2 r s)) := by
  unfold k0_pay5
  refine (tokenSum_keep (k0_pay4 w) r u).trans (Finset.sum_congr rfl fun s _ => mask_apply w r s)

/-- The count accumulator after the body: what it held plus the block's part. -/
theorem countAcc_apply (part : FVec Ideal S8x1 .f32) (held : FVec Ideal S8x1 .f32) (j : S8x1.Idx) :
    k0_pay1 (F := Ideal) part held j = held j + part j := by
  unfold k0_pay1
  show shapeCast S8x1 held shapeCasts_S8x1_S8x1 j + part j = _
  rw [shapeCast_self]

/-- The sum accumulator after the body: what it held plus, per batch row, the block's sum of loss times mask. -/
theorem sumAcc_apply (x t : FVec Ideal S8x256x512 .f32) (w : IVec S8x256 32) (held : FVec Ideal S8x1 .f32)
    (r : Fin 8) (u : Fin 1) :
    k0_pay6 (F := Ideal) x t w held (ix2 r u)
      = held (ix2 r u) + ∑ s : Fin 256, lossFolded (blkRow x r s) (blkRow t r s) * active (w (ix2 r s)) := by
  have e : k0_pay6 (F := Ideal) x t w held
      = addf (shapeCast S8x1 held shapeCasts_S8x1_S8x1)
          (shapeCast S8x1 (multiReduction .add [1] S8 (mulf (lossBlk x t) (k0_pay4 w)) 0x00000000#32 reduces_S8x256_S8 (.inl rfl) rfl)
            shapeCasts_S8_S8x1) := rfl
  rw [e]
  show shapeCast S8x1 held shapeCasts_S8x1_S8x1 (ix2 r u) + shapeCast S8x1 _ shapeCasts_S8_S8x1 (ix2 r u) = _
  rw [shapeCast_self, tokenSum_keep]
  refine congrArg (held (ix2 r u) + ·) (Finset.sum_congr rfl fun s _ => ?_)
  show lossBlk x t (ix2 r s) * k0_pay4 (F := Ideal) w (ix2 r s) = _
  rw [lossBlk_apply, mask_apply]

end Cert.KernelIdeal.Payload

end
-- ==== Proof.KernelAccum.lean ====
/-
  What the two accumulators hold after every grid point.

  The grid has 32 points: point `n` handles batch half `n / 16` and token stretch `n % 16`. At the first stretch of a
  half the accumulators restart from zero, at every other stretch they continue from what the point before left.
  So after point `n` the sum accumulator holds, for each of the half's 8 batch rows, the parts of the stretches
  `0 … n % 16` of that half added up — and the count accumulator likewise —, by induction on the point. A point's part
  for a batch row is the sum over the stretch's 256 tokens of loss times mask (for the count: of the mask), read
  off the blocks the point's windows hold.
-/
import proofs.«143125_j58497454571825_2_alg».proof.Proof.Gen.KernelIdeal.Frame
import proofs.«143125_j58497454571825_2_alg».proof.Proof.KernelPieces
import proofs.«143125_j58497454571825_2_alg».proof.Proof.KernelPayload

noncomputable section

namespace Cert.KernelIdeal.Accum

open Cert.KernelIdeal Cert.KernelIdeal.Gen Cert.MaskedLoss Cert.KernelIdeal.Payload
open Idealize.ShloMosaic Idealize.ShloMosaic.TcCoe Idealize.ShloMosaic.ValueIdx Idealize.SL.Sem

variable (m : (ℓ : Loc nD τ sig) → Buf (Elt Ideal) ℓ)

/-- The three blocks grid point `t`'s windows hold, at their literal shapes. -/
def logitsBlk (c : Dev nD) (t : Fin cfg0.N) : FVec Ideal S8x256x512 .f32 := iblk m c 0 t
def labelsBlk (c : Dev nD) (t : Fin cfg0.N) : FVec Ideal S8x256x512 .f32 := iblk m c 1 t
def maskBlk (c : Dev nD) (t : Fin cfg0.N) : IVec S8x256 32 := iblk m c 2 t

/-- What grid point `n` adds to the sum accumulator for the block's batch row `r` (nothing past the grid). -/
def sumPart (c : Dev nD) (n : ℕ) (r : Fin 8) : EReal :=
  if h : n < cfg0.N then
    ∑ s : Fin 256, lossFolded (blkRow (logitsBlk m c ⟨n, h⟩) r s) (blkRow (labelsBlk m c ⟨n, h⟩) r s)
      * active (maskBlk m c ⟨n, h⟩ (ix2 r s))
  else 0

/-- What grid point `n` adds to the count accumulator for the block's batch row `r`. -/
def cntPart (c : Dev nD) (n : ℕ) (r : Fin 8) : EReal :=
  if h : n < cfg0.N then ∑ s : Fin 256, active (maskBlk m c ⟨n, h⟩ (ix2 r s)) else 0

/-- The zeros a half's first point stores are the extended real 0. -/
theorem zeros_apply (j : S8x1.Idx) : k0_pay2 (F := Ideal) j = 0 ∧ k0_pay3 (F := Ideal) j = 0 :=
  ⟨Ideal.ofBits_zero_f32, Ideal.ofBits_zero_f32⟩

/-- At a half's first point the accumulators hold that point's parts. -/
theorem pointFirst (c : Dev nD) (t : Fin cfg0.N) (h0 : t.val % 16 = 0) (r : Fin 8) (u : Fin 1) :
    (outsAt0 m c t.val t.isLt).1 (ix2 r u) = sumPart m c t.val r
    ∧ (outsAt0 m c t.val t.isLt).2 (ix2 r u) = cntPart m c t.val r := by
  have e := outsAt0_A m c t h0
  have e1 : (outsAt0 m c t.val t.isLt).1 = k0_pay6 (F := Ideal) (logitsBlk m c t) (labelsBlk m c t) (maskBlk m c t) (k0_pay2 (F := Ideal)) :=
    by rw [e]; exact Pieces.sumA (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)
  have e2 : (outsAt0 m c t.val t.isLt).2 = k0_pay1 (F := Ideal) (k0_pay5 (F := Ideal) (maskBlk m c t)) (k0_pay3 (F := Ideal)) :=
    by rw [e]; exact Pieces.cntA (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)
  constructor
  · refine (congrFun e1 (ix2 r u)).trans ((sumAcc_apply (logitsBlk m c t) (labelsBlk m c t) (maskBlk m c t) _ r u).trans ?_)
    rw [(zeros_apply (ix2 r u)).1, zero_add]
    unfold sumPart
    rw [dif_pos t.isLt]
  · refine (congrFun e2 (ix2 r u)).trans ((countAcc_apply _ _ (ix2 r u)).trans ?_)
    rw [(zeros_apply (ix2 r u)).2, zero_add, countPart_apply]
    unfold cntPart
    rw [dif_pos t.isLt]

/-- At any other point they hold what the point before left plus the point's parts. -/
theorem pointNext (c : Dev nD) (n : ℕ) (h : n + 1 < cfg0.N) (h0 : ¬(n + 1) % 16 = 0) (r : Fin 8) (u : Fin 1) :
    (outsAt0 m c (n + 1) h).1 (ix2 r u) = (outsAt0 m c n (Nat.lt_of_succ_lt h)).1 (ix2 r u) + sumPart m c (n + 1) r
    ∧ (outsAt0 m c (n + 1) h).2 (ix2 r u) = (outsAt0 m c n (Nat.lt_of_succ_lt h)).2 (ix2 r u) + cntPart m c (n + 1) r := by
  let t : Fin cfg0.N := ⟨n + 1, h⟩
  have e : outsAt0 m c (n + 1) h = _ := outsAt0_B m c t h0
  have e1 : (outsAt0 m c (n + 1) h).1
      = k0_pay6 (F := Ideal) (logitsBlk m c t) (labelsBlk m c t) (maskBlk m c t) (outsAt0 m c n (Nat.lt_of_succ_lt h)).1 :=
    by rw [e]; exact Pieces.sumB (F := Ideal) c (grid0.coords t) (ms0_0 t) (hs0_0 t) (ms0_1 t) (hs0_1 t) (ms0_2 t) (hs0_2 t) (ms0_3 t) (hs0_3 t) (ms0_4 t) (hs0_4 t) (fun hc => h0 ((hcond0_0 t).mp hc)) (iblk m c 0 t) (iblk m c 1 t) (iblk m c 2 t)
        (outsAt0 m c n (Nat.lt_of_succ_lt h)).1 (outsAt0 m c n (Nat.lt_of_succ_lt h)).2
  have e2 : (outsAt0 m c (n + 1) h).2
      = k0_pay1 (F := Ideal) (k0_pay5 (F := Ideal) (maskBlk m c t)) (outsAt0 m c n (Nat.lt_of_succ_lt h)).2 :=
    by rw [e]; exact Pieces.cntB (F := Ideal) c (grid0.coords t) (ms0_0 t) (hs0_0 t) (ms0_1 t) (hs0_1 t) (ms0_2 t) (hs0_2 t) (ms0_3 t) (hs0_3 t) (ms0_4 t) (hs0_4 t) (fun hc => h0 ((hcond0_0 t).mp hc)) (iblk m c 0 t) (iblk m c 1 t) (iblk m c 2 t)
        (outsAt0 m c n (Nat.lt_of_succ_lt h)).1 (outsAt0 m c n (Nat.lt_of_succ_lt h)).2
  constructor
  · refine (congrFun e1 (ix2 r u)).trans ((sumAcc_apply (logitsBlk m c t) (labelsBlk m c t) (maskBlk m c t) _ r u).trans ?_)
    unfold sumPart
    rw [dif_pos h]
  · refine (congrFun e2 (ix2 r u)).trans ((countAcc_apply _ _ (ix2 r u)).trans ?_)
    rw [countPart_apply]
    unfold cntPart
    rw [dif_pos h]

/-- After point `n` the accumulators hold the parts of the stretches `0 … n % 16` of the point's batch half, added up. -/
theorem held_after (c : Dev nD) (r : Fin 8) (u : Fin 1) : ∀ (n : ℕ) (h : n < cfg0.N),
    (outsAt0 m c n h).1 (ix2 r u) = ∑ j ∈ Finset.range (n % 16 + 1), sumPart m c (16 * (n / 16) + j) r
    ∧ (outsAt0 m c n h).2 (ix2 r u) = ∑ j ∈ Finset.range (n % 16 + 1), cntPart m c (16 * (n / 16) + j) r := by
  intro n
  induction n with
  | zero =>
    intro h
    obtain ⟨e1, e2⟩ := pointFirst m c ⟨0, h⟩ rfl r u
    exact ⟨e1.trans (by simp), e2.trans (by simp)⟩
  | succ n ih =>
    intro h
    by_cases h0 : (n + 1) % 16 = 0
    · obtain ⟨e1, e2⟩ := pointFirst m c ⟨n + 1, h⟩ h0 r u
      have hd : 16 * ((n + 1) / 16) + 0 = n + 1 := by omega
      rw [h0, Finset.sum_range_one, Finset.sum_range_one, hd]
      exact ⟨e1, e2⟩
    · obtain ⟨e1, e2⟩ := pointNext m c n h h0 r u
      obtain ⟨i1, i2⟩ := ih (Nat.lt_of_succ_lt h)
      have hm : (n + 1) % 16 = n % 16 + 1 := by omega
      have hq : (n + 1) / 16 = n / 16 := by omega
      have hn : 16 * (n / 16) + (n % 16 + 1) = n + 1 := by omega
      rw [hm, hq, Finset.sum_range_succ _ (n % 16 + 1), Finset.sum_range_succ _ (n % 16 + 1), hn, ← i1, ← i2]
      exact ⟨e1, e2⟩

end Cert.KernelIdeal.Accum

end
-- ==== Proof.KernelFinal.lean ====
/-
  The two result arrays of the region: the 16 row sums and the 16 row counts.

  Grid point `t` works on batch rows `8·(t / 16) … 8·(t / 16) + 7` and tokens `256·(t % 16) … 256·(t % 16) + 255`:
  entry `(r, s, k)` of the block a window holds at `t` is entry `(8·(t / 16) + r, 256·(t % 16) + s, k)` of the array.
  So the part point `16·(b / 8) + j` adds for block row `b % 8` is the sum over stretch `j` of batch row `b`, and the 16
  parts of a batch half's points add up to the sum over all 4096 tokens of the batch row. The accumulators are
  written back after the last stretch of each half (points 15 and 31), into rows `0 … 7` and `8 … 15` of the two
  `[16, 1]` result arrays; these two blocks cover the arrays, so the arrays end holding the 16 row sums (the loss in its
  folded arrangement) and the 16 row counts.
-/
import proofs.«143125_j58497454571825_2_alg».proof.Proof.KernelAccum
import Idealize.ShloMosaic.Lib.Pipeline.Value

noncomputable section

namespace Cert.KernelIdeal.Final

open Cert.KernelIdeal Cert.KernelIdeal.Gen Cert.MaskedLoss Cert.KernelIdeal.Payload Cert.KernelIdeal.Accum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three argument arrays at their literal shapes. -/
def logits (c : Dev nD) : (⟨3, ![16, 4096, 512]⟩ : Shape).Idx → EReal := m ((c.tc : Thread nD τ).loc main_arg0)
def labels (c : Dev nD) : (⟨3, ![16, 4096, 512]⟩ : Shape).Idx → EReal := m ((c.tc : Thread nD τ).loc main_arg1)
def mask (c : Dev nD) : (⟨2, ![16, 4096]⟩ : Shape).Idx → BitVec 32 := m ((c.tc : Thread nD τ).loc main_arg2)

/-- The printed index maps, decided over the grid: point `t` is at block row `t / 16` and block column `t % 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 2) = t.val / 16 ∧ win0_2.index t (1 : Fin 2) = t.val % 16
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

/-! ## A block's entries are the array's -/

theorem logitsBlk_apply (c : Dev nD) (t : Fin cfg0.N) (r : Fin 8) (s : Fin 256) (k : Fin 512) (b : Fin 16) (q : Fin 4096)
    (hb : b.val = 8 * (t.val / 16) + r.val) (hq : q.val = 256 * (t.val % 16) + s.val) :
    logitsBlk m c t (ix3 r s k) = logits m c (ix3 b q k) := by
  unfold logitsBlk iblk logits
  rw [View.read_apply]
  show V m c main_arg0 _ = m ((c.tc : Thread nD τ).loc main_arg0) _
  rw [V_main_arg0]
  refine congrArg _ (funext fun a => Fin.ext ?_)
  obtain ⟨e0, e1, e2, -⟩ := idx_facts t
  match a with
  | ⟨0, _⟩ => show win0_0.index t (0 : Fin 3) * 8 + 1 * r.val = b.val; rw [e0, hb]; omega
  | ⟨1, _⟩ => show win0_0.index t (1 : Fin 3) * 256 + 1 * s.val = q.val; rw [e1, hq]; omega
  | ⟨2, _⟩ => show win0_0.index t (2 : Fin 3) * 512 + 1 * k.val = k.val; rw [e2]; omega

theorem labelsBlk_apply (c : Dev nD) (t : Fin cfg0.N) (r : Fin 8) (s : Fin 256) (k : Fin 512) (b : Fin 16) (q : Fin 4096)
    (hb : b.val = 8 * (t.val / 16) + r.val) (hq : q.val = 256 * (t.val % 16) + s.val) :
    labelsBlk m c t (ix3 r s k) = labels m c (ix3 b q k) := by
  unfold labelsBlk iblk labels
  rw [View.read_apply]
  show V m c main_arg1 _ = m ((c.tc : Thread nD τ).loc main_arg1) _
  rw [V_main_arg1]
  refine congrArg _ (funext fun a => Fin.ext ?_)
  obtain ⟨-, -, -, e0, e1, e2, -⟩ := idx_facts t
  match a with
  | ⟨0, _⟩ => show win0_1.index t (0 : Fin 3) * 8 + 1 * r.val = b.val; rw [e0, hb]; omega
  | ⟨1, _⟩ => show win0_1.index t (1 : Fin 3) * 256 + 1 * s.val = q.val; rw [e1, hq]; omega
  | ⟨2, _⟩ => show win0_1.index t (2 : Fin 3) * 512 + 1 * k.val = k.val; rw [e2]; omega

theorem maskBlk_apply (c : Dev nD) (t : Fin cfg0.N) (r : Fin 8) (s : Fin 256) (b : Fin 16) (q : Fin 4096)
    (hb : b.val = 8 * (t.val / 16) + r.val) (hq : q.val = 256 * (t.val % 16) + s.val) :
    maskBlk m c t (ix2 r s) = mask m c (ix2 b q) := by
  unfold maskBlk iblk mask
  rw [View.read_apply]
  show V m c main_arg2 _ = m ((c.tc : Thread nD τ).loc main_arg2) _
  rw [V_main_arg2]
  refine congrArg _ (funext fun a => Fin.ext ?_)
  obtain ⟨-, -, -, -, -, -, e0, e1, -⟩ := idx_facts t
  match a with
  | ⟨0, _⟩ => show win0_2.index t (0 : Fin 2) * 8 + 1 * r.val = b.val; rw [e0, hb]; omega
  | ⟨1, _⟩ => show win0_2.index t (1 : Fin 2) * 256 + 1 * s.val = q.val; rw [e1, hq]; omega

/-! ## A batch row's 4096 tokens as the 16 parts of its half's points -/

theorem lt_N (b : Fin 16) (j : ℕ) (hj : j < 16) : 16 * (b.val / 8) + j < cfg0.N := by
  have hN : cfg0.N = 32 := N_0
  have := b.isLt
  omega

/-- Point `16·(b / 8) + j`'s part for block row `b % 8` is the sum over stretch `j` of batch row `b`. -/
theorem sumPart_eq (c : Dev nD) (b : Fin 16) (j : Fin 16) :
    sumPart m c (16 * (b.val / 8) + j.val) ⟨b.val % 8, Nat.mod_lt _ (by decide)⟩
      = ∑ s : Fin 256, lossFolded (tokens (logits m c) b ⟨256 * j.val + s.val, by have := j.isLt; have := s.isLt; omega⟩)
          (tokens (labels m c) b ⟨256 * j.val + s.val, by have := j.isLt; have := s.isLt; omega⟩)
          * active (maskRow (mask m c) b ⟨256 * j.val + s.val, by have := j.isLt; have := s.isLt; omega⟩) := by
  have hlt := lt_N b j.val j.isLt
  unfold sumPart
  rw [dif_pos hlt]
  refine Finset.sum_congr rfl fun s _ => ?_
  have hjl := j.isLt
  have hbl := b.isLt
  have hb : b.val = 8 * ((16 * (b.val / 8) + j.val) / 16) + b.val % 8 := by omega
  have hq : 256 * j.val + s.val = 256 * ((16 * (b.val / 8) + j.val) % 16) + s.val := by omega
  refine congrArg₂ (· * ·) (congrArg₂ lossFolded (funext fun k => ?_) (funext fun k => ?_)) (congrArg active ?_)
  · exact logitsBlk_apply m c ⟨_, hlt⟩ ⟨b.val % 8, _⟩ s k b ⟨256 * j.val + s.val, _⟩ hb hq
  · exact labelsBlk_apply m c ⟨_, hlt⟩ ⟨b.val % 8, _⟩ s k b ⟨256 * j.val + s.val, _⟩ hb hq
  · exact maskBlk_apply m c ⟨_, hlt⟩ ⟨b.val % 8, _⟩ s b ⟨256 * j.val + s.val, _⟩ hb hq

theorem cntPart_eq (c : Dev nD) (b : Fin 16) (j : Fin 16) :
    cntPart m c (16 * (b.val / 8) + j.val) ⟨b.val % 8, Nat.mod_lt _ (by decide)⟩
      = ∑ s : Fin 256, active (maskRow (mask m c) b ⟨256 * j.val + s.val, by have := j.isLt; have := s.isLt; omega⟩) := by
  have hlt := lt_N b j.val j.isLt
  unfold cntPart
  rw [dif_pos hlt]
  refine Finset.sum_congr rfl fun s _ => ?_
  have hjl := j.isLt
  have hbl := b.isLt
  have hb : b.val = 8 * ((16 * (b.val / 8) + j.val) / 16) + b.val % 8 := by omega
  have hq : 256 * j.val + s.val = 256 * ((16 * (b.val / 8) + j.val) % 16) + s.val := by omega
  exact congrArg active (maskBlk_apply m c ⟨_, hlt⟩ ⟨b.val % 8, _⟩ s b ⟨256 * j.val + s.val, _⟩ hb hq)

/-- The 16 parts of a batch half's points add up to the batch row's sum over its 4096 tokens. -/
theorem parts_sum (c : Dev nD) (b : Fin 16) :
    ∑ j ∈ Finset.range 16, sumPart m c (16 * (b.val / 8) + j) ⟨b.val % 8, Nat.mod_lt _ (by decide)⟩
      = rowSum lossFolded (tokens (logits m c) b) (tokens (labels m c) b) (maskRow (mask m c) b) := by
  rw [Finset.sum_range fun j => sumPart m c (16 * (b.val / 8) + j) ⟨b.val % 8, Nat.mod_lt _ (by decide)⟩]
  unfold rowSum
  rw [sum_stretches]
  exact Finset.sum_congr rfl fun j _ => sumPart_eq m c b j

theorem parts_count (c : Dev nD) (b : Fin 16) :
    ∑ j ∈ Finset.range 16, cntPart m c (16 * (b.val / 8) + j) ⟨b.val % 8, Nat.mod_lt _ (by decide)⟩
      = rowCount (maskRow (mask m c) b) := by
  rw [Finset.sum_range fun j => cntPart m c (16 * (b.val / 8) + j) ⟨b.val % 8, Nat.mod_lt _ (by decide)⟩]
  unfold rowCount
  rw [sum_stretches]
  exact Finset.sum_congr rfl fun j _ => cntPart_eq m c b j

/-! ## The result arrays -/

/-- The `[16, 1]` array of row sums and the `[16, 1]` array of row counts. -/
def sumArr (c : Dev nD) : (⟨2, ![16, 1]⟩ : Shape).Idx → EReal :=
  fun i => rowSum lossFolded (tokens (logits m c) (i 0)) (tokens (labels m c) (i 0)) (maskRow (mask m c) (i 0))
def cntArr (c : Dev nD) : (⟨2, ![16, 1]⟩ : Shape).Idx → EReal :=
  fun i => rowCount (maskRow (mask m c) (i 0))

/-- After the last stretch of a half (`t % 16 = 15`) the accumulators hold the half's row sums and row counts. -/
theorem held_last (c : Dev nD) (t : Fin cfg0.N) (h15 : t.val % 16 = 15) (r : Fin 8) (u : Fin 1) (b : Fin 16)
    (hb : b.val = 8 * (t.val / 16) + r.val) :
    (outsAt0 m c t.val t.isLt).1 (ix2 r u) = rowSum lossFolded (tokens (logits m c) b) (tokens (labels m c) b) (maskRow (mask m c) b)
    ∧ (outsAt0 m c t.val t.isLt).2 (ix2 r u) = rowCount (maskRow (mask m c) b) := by
  have hr := r.isLt
  have hq : t.val / 16 = b.val / 8 := by omega
  have hrr : r = ⟨b.val % 8, Nat.mod_lt _ (by decide)⟩ := Fin.ext (by show r.val = b.val % 8; omega)
  subst hrr
  obtain ⟨e1, e2⟩ := held_after m c ⟨b.val % 8, Nat.mod_lt _ (by decide)⟩ u t.val t.isLt
  rw [h15, hq] at e1 e2
  exact ⟨e1.trans (parts_sum m c b), e2.trans (parts_count m c b)⟩

/-- What a flushing point writes back of the sum accumulator is its block of the array of row sums. -/
theorem flushed3_eq (c : Dev nD) (t : Fin cfg0.N) (hf : (cfg0.win 3).flush t = true) :
    (dats m 0 c).flushed 3 t = ((cfg0.win 3).blk t).view.read (Elt Ideal) (sumArr m c) := by
  have h15 : t.val % 16 = 15 := (flush0_3 t).mp hf
  show (cfg0.win 3).cut (grid0.coords t) ((dats m 0 c).after 3 t) = _
  rw [after0_3]
  funext y
  obtain ⟨r, u, rfl⟩ : ∃ (r : Fin 8) (u : Fin 1), y = ix2 r u := ⟨y 0, y 1, eq_ix2 y⟩
  rw [View.read_apply]
  obtain ⟨-, -, -, -, -, -, -, -, e0, -⟩ := idx_facts t
  have hN : cfg0.N = 32 := N_0
  have ht := t.isLt
  have hr := r.isLt
  let b : Fin 16 := ⟨8 * (t.val / 16) + r.val, by omega⟩
  have hbe : (((cfg0.win 3).blk t).view.emb (ix2 r u)) 0 = b :=
    Fin.ext (by show win0_3.index t (0 : Fin 2) * 8 + 1 * r.val = 8 * (t.val / 16) + r.val; rw [e0]; omega)
  show (outsAt0 m c t.val t.isLt).1 (ix2 r u) = sumArr m c (((cfg0.win 3).blk t).view.emb (ix2 r u))
  unfold sumArr
  rw [hbe]
  exact (held_last m c t h15 r u b rfl).1

theorem flushed4_eq (c : Dev nD) (t : Fin cfg0.N) (hf : (cfg0.win 4).flush t = true) :
    (dats m 0 c).flushed 4 t = ((cfg0.win 4).blk t).view.read (Elt Ideal) (cntArr m c) := by
  have h15 : t.val % 16 = 15 := (flush0_4 t).mp hf
  show (cfg0.win 4).cut (grid0.coords t) ((dats m 0 c).after 4 t) = _
  rw [after0_4]
  funext y
  obtain ⟨r, u, rfl⟩ : ∃ (r : Fin 8) (u : Fin 1), y = ix2 r u := ⟨y 0, y 1, eq_ix2 y⟩
  rw [View.read_apply]
  obtain ⟨-, -, -, -, -, -, -, -, -, -, e0, -⟩ := idx_facts t
  have hN : cfg0.N = 32 := N_0
  have ht := t.isLt
  have hr := r.isLt
  let b : Fin 16 := ⟨8 * (t.val / 16) + r.val, by omega⟩
  have hbe : (((cfg0.win 4).blk t).view.emb (ix2 r u)) 0 = b :=
    Fin.ext (by show win0_4.index t (0 : Fin 2) * 8 + 1 * r.val = 8 * (t.val / 16) + r.val; rw [e0]; omega)
  show (outsAt0 m c t.val t.isLt).2 (ix2 r u) = cntArr m c (((cfg0.win 4).blk t).view.emb (ix2 r u))
  unfold cntArr
  rw [hbe]
  exact (held_last m c t h15 r u b rfl).2

/-- An index of a result array is in point `t`'s block iff each coordinate is in the block's range on its axis. -/
theorem mem_blk3 (t : Fin cfg0.N) (i : S16x1.Idx) :
    i ∈ ((cfg0.win 3).blk t).view.set ↔ ∀ a : Fin 2, win0_3.index t a * S8x1.size a ≤ (i a).val ∧ (i a).val < win0_3.index t a * S8x1.size a + S8x1.size a := by
  show i ∈ ((View.whole main_v0_0).slice (win0_3.rect t)).set ↔ _
  rw [View.set_slice_whole, Rect.mem_set_unit]
  exact Iff.rfl
theorem mem_blk4 (t : Fin cfg0.N) (i : S16x1.Idx) :
    i ∈ ((cfg0.win 4).blk t).view.set ↔ ∀ a : Fin 2, win0_4.index t a * S8x1.size a ≤ (i a).val ∧ (i a).val < win0_4.index t a * S8x1.size a + S8x1.size a := by
  show i ∈ ((View.whole main_v0_1).slice (win0_4.rect t)).set ↔ _
  rw [View.set_slice_whole, Rect.mem_set_unit]
  exact Iff.rfl

/-- Row `i` of a result array is written back by the last point of its half, `16·(i / 8) + 15`. -/
theorem cover3 (i : S16x1.Idx) : ∃ t : Fin cfg0.N, (cfg0.win 3).flush t = true ∧ i ∈ ((cfg0.win 3).blk t).view.set := by
  have hN : cfg0.N = 32 := N_0
  have h0 : (i 0).val < 16 := (i 0).isLt
  have h1 : (i 1).val < 1 := (i 1).isLt
  let t : Fin cfg0.N := ⟨16 * ((i 0).val / 8) + 15, by omega⟩
  obtain ⟨-, -, -, -, -, -, -, -, e0, e1, -⟩ := idx_facts t
  have ev : t.val = 16 * ((i 0).val / 8) + 15 := rfl
  refine ⟨t, (flush0_3 t).mpr (by rw [ev]; omega), ?_⟩
  rw [mem_blk3]
  intro a
  match a with
  | ⟨0, _⟩ => show win0_3.index t (0 : Fin 2) * 8 ≤ (i 0).val ∧ (i 0).val < win0_3.index t (0 : Fin 2) * 8 + 8; rw [e0, ev]; omega
  | ⟨1, _⟩ => show win0_3.index t (1 : Fin 2) * 1 ≤ (i 1).val ∧ (i 1).val < win0_3.index t (1 : Fin 2) * 1 + 1; rw [e1]; omega

theorem cover4 (i : S16x1.Idx) : ∃ t : Fin cfg0.N, (cfg0.win 4).flush t = true ∧ i ∈ ((cfg0.win 4).blk t).view.set := by
  have hN : cfg0.N = 32 := N_0
  have h0 : (i 0).val < 16 := (i 0).isLt
  have h1 : (i 1).val < 1 := (i 1).isLt
  let t : Fin cfg0.N := ⟨16 * ((i 0).val / 8) + 15, by omega⟩
  obtain ⟨-, -, -, -, -, -, -, -, -, -, e0, e1⟩ := idx_facts t
  have ev : t.val = 16 * ((i 0).val / 8) + 15 := rfl
  refine ⟨t, (flush0_4 t).mpr (by rw [ev]; omega), ?_⟩
  rw [mem_blk4]
  intro a
  match a with
  | ⟨0, _⟩ => show win0_4.index t (0 : Fin 2) * 8 ≤ (i 0).val ∧ (i 0).val < win0_4.index t (0 : Fin 2) * 8 + 8; rw [e0, ev]; omega
  | ⟨1, _⟩ => show win0_4.index t (1 : Fin 2) * 1 ≤ (i 1).val ∧ (i 1).val < win0_4.index t (1 : Fin 2) * 1 + 1; rw [e1]; omega

/-- The array of row sums after the region. -/
theorem final3 (c : Dev nD) : (dats m 0 c).arrAt 3 cfg0.N = sumArr m c :=
  (dats m 0 c).arrAt_eq_of_cover 3 (sumArr m c) (flushed3_eq m c) cover3

/-- The array of row counts after the region. -/
theorem final4 (c : Dev nD) : (dats m 0 c).arrAt 4 cfg0.N = cntArr m c :=
  (dats m 0 c).arrAt_eq_of_cover 4 (cntArr m c) (flushed4_eq m c) cover4

end Cert.KernelIdeal.Final

end
-- ==== Proof.LibColumnCast.lean ====
/-
  Columns of a matrix as flat vectors, read at an index.

  A matrix with a single column holds the same numbers as the flat vector of its rows: in row-major order entry
  (r, 0) of an n-by-1 matrix sits at position r * 1 + 0 = r, which is position r of a vector of length n. So
  reshaping between the two shapes moves no number: the vector's entry r is the matrix's entry (r, 0), in both
  directions. Cutting column c out of an n-by-2 matrix and flattening it therefore reads, at r, the matrix at (r, c).

  General in the number of rows and in the type of the entries.
-/
import Idealize.ShloMosaic.Lib.Pipeline.Value
import Idealize.ShloMosaic.Lib.ValueIdx
import Idealize.ShloMosaic.Lib.ValueLayout

noncomputable section

namespace Idealize.ShloMosaic.ColumnCast

open Idealize.ShloMosaic Idealize.ShloMosaic.ValueIdx

variable {α : Type} {n : Nat}

/-- FLATTENING a one-column matrix: entry r of the vector is entry (r, 0) of the matrix (same row-major position). -/
theorem flatten_column_apply (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r (0 : Fin 1)) :=
  shapeCast_apply v h (ix1 r) (ix2 r (0 : Fin 1))
    (by rw [Shape.rowMajor_val_two, Shape.rowMajor_val_one]; show r.val * 1 + 0 = r.val; omega)

/-- STANDING a vector up as a one-column matrix: the matrix's entry in row r (its only column) is entry r of the
    vector. Stated at any index y of the matrix whose row is r. -/
theorem stand_column_apply (v : (⟨1, ![n]⟩ : Shape).Idx → α)
    (h : (⟨1, ![n]⟩ : Shape).ShapeCasts ⟨2, ![n, 1]⟩) (y : (⟨2, ![n, 1]⟩ : Shape).Idx) (r : Fin n)
    (hy : (y 0).val = r.val) :
    shapeCast ⟨2, ![n, 1]⟩ v h y = v (ix1 r) :=
  shapeCast_apply v h y (ix1 r)
    (by
      rw [Shape.rowMajor_val_two, Shape.rowMajor_val_one]
      have h1 : (y 1).val < 1 := (y 1).isLt
      show r.val = (y 0).val * 1 + (y 1).val
      omega)

/-- COLUMN c of an n-by-2 matrix, cut out as a one-column matrix starting at column o = c and flattened, reads at
    r the matrix's entry (r, c). -/
theorem flat_column_apply (o : Nat) (X : (⟨2, ![n, 2]⟩ : Shape).Idx → α)
    (h : (⟨2, ![n, 2]⟩ : Shape).Slices ![0, o] ⟨2, ![n, 1]⟩)
    (h' : (⟨2, ![n, 1]⟩ : Shape).ShapeCasts ⟨1, ![n]⟩) (r : Fin n) (c : Fin 2) (hc : c.val = o) :
    shapeCast ⟨1, ![n]⟩ (extractStridedSlice ⟨2, ![n, 1]⟩ ![0, o] X h) h' (ix1 r) = X (ix2 r c) :=
  (flatten_column_apply _ h' r).trans
    (slice2_axis1_apply o X h r (0 : Fin 1) c (by rw [hc]; rfl))

end Idealize.ShloMosaic.ColumnCast

end
-- ==== Proof.KernelTail.lean ====
/-
  The operations after the region: from the two result arrays to the scalar.

  After the region the program flattens the two `[16, 1]` arrays to length 16 (entry `b` of the flat array is entry
  `(b, 0)`), and then applies exactly the specification's epilogue to them. The flattened arrays are the
  specification's 16 row sums (the loss in its folded arrangement) and 16 row counts of the three argument arrays.
-/
import proofs.«143125_j58497454571825_2_alg».proof.Proof.KernelFinal
import proofs.«143125_j58497454571825_2_alg».proof.Proof.LibColumnCast
import Idealize.ShloMosaic.Lib.StableHlo.Run

noncomputable section

namespace Cert.KernelIdeal.Tail

open Cert.KernelIdeal Cert.KernelIdeal.Gen Cert.MaskedLoss Cert.KernelIdeal.Final
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The flattened array of row sums is the specification's. -/
theorem flat_sums (c : Dev nD) :
    shapeCast S16 (sumArr m c) shapeCasts_S16x1_S16 = sums lossFolded (logits m c) (labels m c) (mask m c) :=
  funext fun j => by
    obtain ⟨b, rfl⟩ : ∃ b : Fin 16, j = ix1 b := ⟨j 0, eq_ix1 j⟩
    exact ColumnCast.flatten_column_apply (sumArr m c) shapeCasts_S16x1_S16 b

/-- The flattened array of row counts is the specification's. -/
theorem flat_counts (c : Dev nD) :
    shapeCast S16 (cntArr m c) shapeCasts_S16x1_S16 = counts (mask m c) :=
  funext fun j => by
    obtain ⟨b, rfl⟩ : ∃ b : Fin 16, j = ix1 b := ⟨j 0, eq_ix1 j⟩
    exact ColumnCast.flatten_column_apply (cntArr m c) shapeCasts_S16x1_S16 b

/-- The operations that follow the region, run from any contents of the buffers: the result buffer ends at the
    epilogue of the two result arrays, flattened. -/
theorem tail_of (W : Valuation τ sig (Elt Ideal)) :
    StableHlo.after hostOps1 W (Proc.devRef .tc main_v13)
      = epilogue bcast_S_S16 reducesTo_S16_S_d0 h_S_
          (shapeCast S16 (W (Proc.devRef .tc main_v0_0)) shapeCasts_S16x1_S16)
          (shapeCast S16 (W (Proc.devRef .tc main_v0_1)) shapeCasts_S16x1_S16) := by
  after_results
  rfl

/-- What the result buffer holds after the operations that follow the region. -/
theorem tail_eq (c : Dev nD) :
    Pipeline.afterTail₀ cfgs (dats m) 0 (V0 m) [hostOps1] c main_v13
      = epilogue bcast_S_S16 reducesTo_S16_S_d0 h_S_
          (sums lossFolded (logits m c) (labels m c) (mask m c)) (counts (mask m c)) := by
  unfold Pipeline.afterTail₀
  refine (tail_of _).trans ?_
  have e3 := (Pipeline.withArrays_arr spec0 launch0.win.arr_inj c (V0 m c) (fun w => (dats m 0 c).arrAt w cfg0.N) 3).trans (final3 m c)
  have e4 := (Pipeline.withArrays_arr spec0 launch0.win.arr_inj c (V0 m c) (fun w => (dats m 0 c).arrAt w cfg0.N) 4).trans (final4 m c)
  refine congrArg₂ (epilogue bcast_S_S16 reducesTo_S16_S_d0 h_S_) ?_ ?_
  · exact (congrArg (fun A => shapeCast S16 A shapeCasts_S16x1_S16) e3).trans (flat_sums m c)
  · exact (congrArg (fun A => shapeCast S16 A shapeCasts_S16x1_S16) e4).trans (flat_counts m c)

end Cert.KernelIdeal.Tail

end
-- ==== Proof.FiniteInputs.lean ====
/-
  Finite inputs are real inputs.

  Over the extended reals the absolute value of z is max z (-z), and the strict bound max z (-z) < +∞ fails at
  both infinities (there the maximum is +∞) and holds at every real. A precondition that is the conjunction of
  two all-quantified bounds |x| < +∞, one per input array, therefore says exactly that every entry of both arrays
  is the image of a real number.
-/
import proofs.«143125_j58497454571825_2_alg».proof.Pre_finite_inputs
import proofs.«143125_j58497454571825_2_alg».proof.Proof.Gen.Pre_finite_inputs
import proofs.«143125_j58497454571825_2_alg».proof.Proof.LibRealValued
import Idealize.ShloMosaic.Lib.ReduceAll
import Idealize.ShloMosaic.PureOps.Ideal.Laws

noncomputable section

namespace Cert.FiniteInputs

open Idealize.ShloMosaic Cert.Pre_finite_inputs

/-- The binary32 pattern with all-ones exponent and zero significand denotes +∞. -/
theorem ofBits_inf : Ideal.ofBits .f32 0x7F800000#32 = (⊤ : EReal) := by
  simp [Ideal.ofBits, Ideal.ieee]

/-- An extended real whose absolute value max z (-z) lies strictly below +∞ is a real number. -/
theorem isReal_of_abs_lt_top (z : EReal) (h : max z (-z) < ⊤) : Cert.RealValued.IsReal z := by
  induction z using EReal.rec with
  | bot => simp at h
  | coe r => exact ⟨r, rfl⟩
  | top => simp at h

/-- The shape of rank zero has one index. -/
instance : Subsingleton S_.Idx := ⟨fun a b => funext fun d => d.elim0⟩

/-- One entry of the comparison |x| < +∞ being true makes that entry of x a real number. -/
theorem isReal_of_cmp_one [Facts] (x : FVec Ideal S16x4096x512 .f32) (i : S16x4096x512.Idx)
    (h : cmpf .olt (Host.absf x)
        (broadcastInDim S16x4096x512 ![] Facts.bcast_S_S16x4096x512 (constant S_ .f32 0x7F800000#32)) i = 1#1) :
    Cert.RealValued.IsReal (x i) := by
  apply isReal_of_abs_lt_top
  simp only [cmpf, Host.absf, broadcastInDim, constant, Ideal.hostAbsf_def, Ideal.cmpf_def, Ideal.absf_def,
    Ideal.ofBits_def, ofBits_inf, Ideal.cmp] at h
  by_contra hn
  rw [decide_eq_false hn] at h
  exact absurd h (by decide)

/-- The precondition — both all-quantified bounds true — makes every entry of both float arrays a real number. -/
theorem isReal_of_pre [Facts]
    (x0 x1 : FVec Ideal S16x4096x512 .f32) (x2 : IVec S16x4096 32)
    (h : fn (F := Ideal) x0 x1 x2 = fun _ => 1#1) :
    (∀ i, Cert.RealValued.IsReal (x0 i)) ∧ (∀ i, Cert.RealValued.IsReal (x1 i)) := by
  have h0 := congrFun h (fun d => d.elim0)
  dsimp only [fn] at h0
  obtain ⟨ha, hb⟩ := IntOp.andi_eq_one.1 h0
  exact ⟨fun i => isReal_of_cmp_one x0 i (Host.reduce_andi_all _ _ _ _ _ ha i),
    fun i => isReal_of_cmp_one x1 i (Host.reduce_andi_all _ _ _ _ _ hb i)⟩

end Cert.FiniteInputs

end
-- ==== Proof.lean ====
/-
  The masked soft-label cross-entropy kernel against its reference: equal results on the extended reals.

  Both programs compute, from logits `x` and soft labels `t` of shape [16, 4096, 512] and a mask of shape [16, 4096],
  the mean over the batch rows that have an active token of each row's mean loss over its active tokens; a token is
  active when its mask word is 1, and its loss is `-Σ_c t_c · log_softmax(x)_c`.

  The reference forms the log-softmax of every token row, multiplies by the labels, sums and negates, then sums loss
  times mask and the mask itself over each batch row's 4096 tokens (Proof/RefValue.lean).

  The kernel walks a 2 × 16 grid: 8 batch rows by 256 tokens at a time. For each token row it forms the loss as
  `(Σ_c t_c) · L - Σ_c t_c · (x_c - M)` with `M` the row's maximum and `L` the logarithm of the sum of the exponentials
  of the shifted row (Proof/KernelPayload.lean), and adds loss times mask, and the mask, over the 256 tokens into two
  accumulators that are reset at the first of a batch half's 16 stretches and written back after the last
  (Proof/KernelPieces.lean, Proof/KernelAccum.lean). The 16 parts add up to the sums over the 4096 tokens, whatever
  the order of the additions (Proof/KernelFinal.lean). Both programs then apply the same epilogue to the 16 sums and
  16 counts (Proof/KernelTail.lean).

  What joins the two is one law per token row: `(Σ t)·L - Σ t·(x - M) = -Σ t·((x - M) - L)`. It distributes a factor
  over a difference, which on the extended reals needs every quantity to be a real number; the precondition (every
  entry of `x` and `t` is finite, Proof/FiniteInputs.lean) gives exactly that (Proof/Spec.lean).

  The idealization rewrote nothing, so the kernel's idealization is the kernel's own text read on exact numbers.
-/
import proofs.«143125_j58497454571825_2_alg».proof.Defs
import proofs.«143125_j58497454571825_2_alg».proof.Proof.Gen.Kernel
import proofs.«143125_j58497454571825_2_alg».proof.Proof.Gen.Kernel.Skeleton
import proofs.«143125_j58497454571825_2_alg».proof.Proof.Gen.Kernel.Launch
import proofs.«143125_j58497454571825_2_alg».proof.Proof.Gen.Kernel.Points
import proofs.«143125_j58497454571825_2_alg».proof.Proof.Gen.Kernel.Frame
import proofs.«143125_j58497454571825_2_alg».proof.Proof.Gen.KernelIdeal
import proofs.«143125_j58497454571825_2_alg».proof.Proof.Gen.KernelIdeal.Skeleton
import proofs.«143125_j58497454571825_2_alg».proof.Proof.Gen.KernelIdeal.Launch
import proofs.«143125_j58497454571825_2_alg».proof.Proof.Gen.KernelIdeal.Points
import proofs.«143125_j58497454571825_2_alg».proof.Proof.Gen.KernelIdeal.Frame
import proofs.«143125_j58497454571825_2_alg».proof.Proof.Gen.ReferenceIdeal
import proofs.«143125_j58497454571825_2_alg».proof.Proof.RefRunPatched
import proofs.«143125_j58497454571825_2_alg».proof.Proof.RefReadPatched
import proofs.«143125_j58497454571825_2_alg».proof.Proof.Gen.Pre_finite_inputs
import proofs.«143125_j58497454571825_2_alg».proof.Proof.RefValue
import proofs.«143125_j58497454571825_2_alg».proof.Proof.KernelTail
import proofs.«143125_j58497454571825_2_alg».proof.Proof.FiniteInputs
import Idealize.ShloMosaic.Adequacy
import Idealize.ShloMosaic.Init

noncomputable section

namespace Cert.Proof

open Idealize.ShloMosaic Idealize.ShloMosaic.TcCoe Idealize.SL.Sem Cert.MaskedLoss
open Idealize.ShloMosaic.Pipeline (Dat)

/-- The common result: the epilogue of the 16 row sums (the loss against the log-softmax) and the 16 row counts. -/
def result (x t : (⟨3, ![16, 4096, 512]⟩ : Shape).Idx → EReal) (w : (⟨2, ![16, 4096]⟩ : Shape).Idx → BitVec 32) :
    FVec Ideal ⟨0, ![]⟩ .f32 :=
  epilogue Cert.KernelIdeal.Gen.bcast_S_S16 Cert.KernelIdeal.Gen.reducesTo_S16_S_d0 Cert.KernelIdeal.Gen.h_S_
    (sums lossDirect x t w) (counts w)

section Kernel

open Cert.KernelIdeal Cert.KernelIdeal.Gen Cert.KernelIdeal.Final

/-- The result buffer is unscoped and is no window's array, so it is read back as the operations after the region
    leave it. -/
theorem result_bypasses : main_v13 ∈ Pipeline.restRefs sig (cfgs 0).spec :=
  Pipeline.mem_restRefs_of main_v13 rfl (fun w => by fin_cases w <;> decide)

/-- Under the precondition the row sums do not depend on the arrangement of the loss. -/
theorem folded_eq_direct (m : (ℓ : Loc nD τ sig) → Buf (Elt Ideal) ℓ) (c : Dev nD)
    (hpre : Cert.Pre_finite_inputs.fn (F := Ideal) (m ((c.tc : Thread nD τ).loc main_arg0))
      (m ((c.tc : Thread nD τ).loc main_arg1)) (m ((c.tc : Thread nD τ).loc main_arg2)) = fun _ => 1#1) :
    epilogue bcast_S_S16 reducesTo_S16_S_d0 h_S_ (sums lossFolded (logits m c) (labels m c) (mask m c)) (counts (mask m c))
      = result (logits m c) (labels m c) (mask m c) := by
  obtain ⟨hx, ht⟩ := Cert.FiniteInputs.isReal_of_pre _ _ _ hpre
  unfold result
  rw [sums_folded_eq_direct (logits m c) (labels m c) (mask m c) hx ht]

/-- The idealized kernel's run: the result buffer ends at the common result of the argument arrays, which end
    unchanged. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v13) = result (logits m c) (labels m c) (mask m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v13 result_bypasses).trans ((Cert.KernelIdeal.Tail.tail_eq m c).trans (folded_eq_direct m c (hpre c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Kernel

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both idealized programs end with the common result. -/
theorem algebraic : Cert.algebraic_KernelIdeal_ReferenceIdeal := by
  intro m ρ m' ρ' hpre hagree
  refine ⟨fun c => result (Cert.KernelIdeal.Final.logits m c) (Cert.KernelIdeal.Final.labels m c) (Cert.KernelIdeal.Final.mask m c),
    kernel_run m ρ hpre, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v20_eq (F := Ideal) _ _ _).trans
    ((Cert.ReferenceIdeal.RefValue.result_eq _ _ _).trans ?_)
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
